-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x256 : Shape := ⟨2, ![2048, 256]⟩
abbrev S256 : Shape := ⟨1, ![256]⟩
abbrev S256x8 : Shape := ⟨2, ![256, 8]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S256x8 1) : IVec S_ 1 :=
  let main_c_5 : IVec S_ 1 := constantI S_ 1 1#1
  let main_v17 : IVec S_ 1 := (fun x v => Host.reduce IntOp.andi x v reducesTo_S256x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S16384x2048 .f32) (main_arg1 : FVec F S2048x256 .f32) (main_arg2 : FVec F S256 .f32) (main_arg3 : FVec F S256x8 .f32) (main_arg4 : FVec F S8 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x8 .f32 := Host.absf main_arg3
  let main_cst_4 : FVec F S_ .f32 := constant S_ .f32 0x7F800000#32
  let main_v15 : FVec F S256x8 .f32 := broadcastInDim S256x8 ![] bcast_S_S256x8 main_cst_4
  let main_v16 : IVec S256x8 1 := cmpf .olt main_v14 main_v15
  fn_part1 (F := F) main_arg4 main_v13 main_v16
-- ==== Kernel.lean ====
abbrev S16384x2048 : Shape := ⟨2, ![16384, 2048]⟩
abbrev S2048x256 : Shape := ⟨2, ![2048, 256]⟩
abbrev S256 : Shape := ⟨1, ![256]⟩
abbrev S256x8 : Shape := ⟨2, ![256, 8]⟩
abbrev S8 : Shape := ⟨1, ![8]⟩
abbrev S1x256 : Shape := ⟨2, ![1, 256]⟩
abbrev S1x8 : Shape := ⟨2, ![1, 8]⟩
abbrev S16384x8 : Shape := ⟨2, ![16384, 8]⟩
abbrev S2048x2048 : Shape := ⟨2, ![2048, 2048]⟩
abbrev S2048x8 : Shape := ⟨2, ![2048, 8]⟩
abbrev S2048 : Shape := ⟨1, ![2048]⟩
abbrev S2048x1 : Shape := ⟨2, ![2048, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x256, .f32⟩
  | .hbm, ⟨2, _⟩ => ⟨S256, .f32⟩
  | .hbm, ⟨3, _⟩ => ⟨S256x8, .f32⟩
  | .hbm, ⟨4, _⟩ => ⟨S8, .f32⟩
  | .hbm, ⟨5, _⟩ => ⟨S1x256, .f32⟩
  | .hbm, ⟨6, _⟩ => ⟨S1x8, .f32⟩
  | .hbm, ⟨7, _⟩ => ⟨S16384x8, .f32⟩
  | .local _ .vmem, ⟨0, _⟩ => ⟨S2048x2048, .f32⟩
  | .local _ .vmem, ⟨1, _⟩ => ⟨S2048x2048, .f32⟩
  | .local _ .vmem, ⟨2, _⟩ => ⟨S2048x256, .f32⟩
  | .local _ .vmem, ⟨3, _⟩ => ⟨S1x256, .f32⟩
  | .local _ .vmem, ⟨4, _⟩ => ⟨S256x8, .f32⟩
  | .local _ .vmem, ⟨5, _⟩ => ⟨S1x8, .f32⟩
  | .local _ .vmem, ⟨6, _⟩ => ⟨S2048x8, .f32⟩
  | .local _ .vmem, ⟨7, _⟩ => ⟨S2048x8, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  shapeCasts_S8_S1x8 : S8.ShapeCasts S1x8
  inb_S2048x2048_S2048x2048_0_0 : ∀ a, (![0, 0] : Fin 2 → Nat) a + S2048x2048.size a ≤ S2048x2048.size a
  h_S2048x2048 : 0 < S2048x2048.numel
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x8_S256x8_0_0 : ∀ a, (![0, 0] : Fin 2 → Nat) a + S256x8.size a ≤ S256x8.size a
  h_S256x8 : 0 < S256x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  reduces_S2048x8_S2048 : S2048x8.Reduces [1] S2048
  shapeCasts_S2048_S2048x1 : S2048.ShapeCasts S2048x1
  broadcasts_S2048x1_S2048x8 : S2048x1.Broadcasts S2048x8
  inb_S2048x8_S2048x8_0_0 : ∀ a, (![0, 0] : Fin 2 → Nat) a + S2048x8.size a ≤ S2048x8.size a
  h_S2048x8 : 0 < S2048x8.numel
  dot_S2048x2048_S2048x256_S2048x256_1_0_0_1_n_n_wf : DotDims.WF S2048x2048 S2048x256 S2048x256 [1] [0] [0] [1] [] []
  dot_S2048x256_S256x8_S2048x8_1_0_0_1_n_n_wf : DotDims.WF S2048x256 S256x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x2048.size a
  hwx0_0 : ∀ i : grid0.Coords, EltTy.bits .f32 = 32 ∨ (Rect.block (s := S16384x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8.size a ≤ S256x8.size a
  hwx0_3 : ∀ i : grid0.Coords, EltTy.bits .f32 = 32 ∨ (Rect.block (s := S256x8) S256x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x8.size a ≤ S16384x8.size a
  hwx0_5 : ∀ i : grid0.Coords, EltTy.bits .f32 = 32 ∨ (Rect.block (s := S16384x8) S2048x8.size (cc0_transform_5 i) (hinb0_5 i)).WholeWords (EltTy.packing .f32)

variable [Facts₀]

def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x256 : Shape := ⟨2, ![2048, 256]⟩
abbrev S256 : Shape := ⟨1, ![256]⟩
abbrev S256x8 : Shape := ⟨2, ![256, 8]⟩
abbrev S8 : Shape := ⟨1, ![8]⟩
abbrev S16384x256 : Shape := ⟨2, ![16384, 256]⟩
abbrev S1x256 : Shape := ⟨2, ![1, 256]⟩
abbrev S_ : Shape := ⟨0, ![]⟩
abbrev S16384x8 : Shape := ⟨2, ![16384, 8]⟩
abbrev S1x8 : Shape := ⟨2, ![1, 8]⟩
abbrev S16384 : Shape := ⟨1, ![16384]⟩
abbrev S16384x1 : Shape := ⟨2, ![16384, 1]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x256, .f32⟩
  | .hbm, ⟨2, _⟩ => ⟨S256, .f32⟩
  | .hbm, ⟨3, _⟩ => ⟨S256x8, .f32⟩
  | .hbm, ⟨4, _⟩ => ⟨S8, .f32⟩
  | .hbm, ⟨5, _⟩ => ⟨S16384x256, .f32⟩
  | .hbm, ⟨6, _⟩ => ⟨S1x256, .f32⟩
  | .hbm, ⟨7, _⟩ => ⟨S16384x256, .f32⟩
  | .hbm, ⟨8, _⟩ => ⟨S16384x256, .f32⟩
  | .hbm, ⟨9, _⟩ => ⟨S_, .f32⟩
  | .hbm, ⟨10, _⟩ => ⟨S16384x256, .f32⟩
  | .hbm, ⟨11, _⟩ => ⟨S16384x256, .f32⟩
  | .hbm, ⟨12, _⟩ => ⟨S16384x8, .f32⟩
  | .hbm, ⟨13, _⟩ => ⟨S1x8, .f32⟩
  | .hbm, ⟨14, _⟩ => ⟨S16384x8, .f32⟩
  | .hbm, ⟨15, _⟩ => ⟨S16384x8, .f32⟩
  | .hbm, ⟨16, _⟩ => ⟨S_, .f32⟩
  | .hbm, ⟨17, _⟩ => ⟨S16384x8, .f32⟩
  | .hbm, ⟨18, _⟩ => ⟨S16384x8, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384x1, .f32⟩
  | .hbm, ⟨25, _⟩ => ⟨S16384x8, .f32⟩
  | .hbm, ⟨26, _⟩ => ⟨S16384x8, .f32⟩
  | .hbm, ⟨27, _⟩ => ⟨S16384x8, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S16384x8, .f32⟩
  | .hbm, ⟨32, _⟩ => ⟨S16384x8, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  reducesTo_S16384x8_S16384_d1 : S16384x8.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8_0_1 : S16384x1.BroadcastsInDim S16384x8 (![0, 1] : Fin 2 → Fin S16384x8.rank)
  dot_S16384x2048_S2048x256_S16384x256_1_0_0_1_n_n_wf : DotDims.WF S16384x2048 S2048x256 S16384x256 [1] [0] [0] [1] [] []
  dot_S16384x256_S256x8_S16384x8_1_0_0_1_n_n_wf : DotDims.WF S16384x256 S256x8 S16384x8 [1] [0] [0] [1] [] []

variable [Facts₀]

def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf
def dot_S16384x256_S256x8_S16384x8_1_0_0_1_n_n : DotDims S16384x256 S256x8 S16384x8 where
  lhsContracting := [1]
  rhsContracting := [0]
  lhsNonContracting := [0]
  rhsNonContracting := [1]
  lhsBatch := []
  rhsBatch := []
  wf := dot_S16384x256_S256x8_S16384x8_1_0_0_1_n_n_wf

class Facts : Prop extends Facts₀ where

variable [Facts]
-- ==== Proof.RowScore.lean ====
/-
  The routing score of one token, on the extended reals.

  A token is a row of 2048 features. Its 256 hidden units are the positive parts of an affine map of the row,
  hidden k = max (sum_j row j * W1 j k + b1 k) 0; its 8 logits are an affine map of the hidden units,
  logit c = sum_k hidden k * W2 k c + b2 c; and its score is the softmax of the logits taken the stable way:
  with peak = the largest logit (the maximum over the 8 lanes, started from minus infinity),
  score c = exp (logit c - peak) / sum_c' exp (logit c' - peak).

  Everything is stated for ONE row, over the literal index types Fin 2048, Fin 256 and Fin 8, so that a block of
  rows and the whole array are read through the same function: row p of a block of 2048 rows that starts at row
  2048 * t is row 2048 * t + p of the array, and nothing else about the tiling enters the mathematics.

  The three facts at the end are what a program needs when it spells the same score with an extra step that changes
  no value: a division by the word of 1.0, a maximum against the word of minus infinity, and a sum started from
  the word of zero. Each holds at every extended real, the infinities included, so no finiteness is assumed.
-/
import Idealize.ShloMosaic.PureOps.Ideal
import Idealize.ShloMosaic.PureOps.Ideal.Laws
import Idealize.ShloMosaic.Lib.ValueIdx

noncomputable section

open scoped BigOperators

namespace Cert.Router

open Idealize.ShloMosaic Idealize.ShloMosaic.ValueIdx

/-- Hidden unit `k` of a row: the positive part of the row's affine image. The zero it is compared with is kept as
    the word both programs write, so that it is never evaluated. -/
def hidden (xr : Fin 2048 → EReal) (W1 : Fin 2048 → Fin 256 → EReal) (b1 : Fin 256 → EReal) (k : Fin 256) : EReal :=
  max ((∑ j : Fin 2048, xr j * W1 j k) + b1 k) (Ideal.ofBits .f32 0x00000000#32)

/-- Logit `c` of a row: the affine image of its hidden units. -/
def logit (xr : Fin 2048 → EReal) (W1 : Fin 2048 → Fin 256 → EReal) (b1 : Fin 256 → EReal)
    (W2 : Fin 256 → Fin 8 → EReal) (b2 : Fin 8 → EReal) (c : Fin 8) : EReal :=
  (∑ k : Fin 256, hidden xr W1 b1 k * W2 k c) + b2 c

/-- The largest of eight values: the maximum over the lanes, started from the word of minus infinity. -/
def peak (z : Fin 8 → EReal) : EReal :=
  (Finset.univ : Finset (Fin 8)).fold max (Ideal.ofBits .f32 0xFF800000#32) z

/-- The softmax of eight values, shifted by their peak before the exponential. -/
def softmax (z : Fin 8 → EReal) (c : Fin 8) : EReal :=
  Ideal.div (Ideal.exp (z c - peak z)) (∑ c' : Fin 8, Ideal.exp (z c' - peak z))

/-- The routing score of a row at expert `c`. -/
def rowScore (xr : Fin 2048 → EReal) (W1 : Fin 2048 → Fin 256 → EReal) (b1 : Fin 256 → EReal)
    (W2 : Fin 256 → Fin 8 → EReal) (b2 : Fin 8 → EReal) (c : Fin 8) : EReal :=
  softmax (logit xr W1 b1 W2 b2) c

/-- The routing scores of all 16384 tokens: entry (r, c) is the score of row r of x at expert c. The biases are
    vectors here, read at their lane. An entry's two coordinates are rebuilt as numbers below 16384 and below 8. -/
def scores (X : (⟨2, ![16384, 2048]⟩ : Shape).Idx → EReal) (W1 : (⟨2, ![2048, 256]⟩ : Shape).Idx → EReal)
    (b1 : (⟨1, ![256]⟩ : Shape).Idx → EReal) (W2 : (⟨2, ![256, 8]⟩ : Shape).Idx → EReal)
    (b2 : (⟨1, ![8]⟩ : Shape).Idx → EReal) : (⟨2, ![16384, 8]⟩ : Shape).Idx → EReal :=
  fun i => rowScore (fun j => X (ix2 (⟨(i 0).val, (i 0).isLt⟩ : Fin 16384) j)) (fun j k => W1 (ix2 j k))
    (fun k => b1 (ix1 k)) (fun k c => W2 (ix2 k c)) (fun c => b2 (ix1 c)) (⟨(i 1).val, (i 1).isLt⟩ : Fin 8)

/-- At an entry given by its coordinates. -/
theorem scores_ix2 (X : (⟨2, ![16384, 2048]⟩ : Shape).Idx → EReal) (W1 : (⟨2, ![2048, 256]⟩ : Shape).Idx → EReal)
    (b1 : (⟨1, ![256]⟩ : Shape).Idx → EReal) (W2 : (⟨2, ![256, 8]⟩ : Shape).Idx → EReal)
    (b2 : (⟨1, ![8]⟩ : Shape).Idx → EReal) (r : Fin 16384) (c : Fin 8) :
    scores X W1 b1 W2 b2 (ix2 r c)
      = rowScore (fun j => X (ix2 r j)) (fun j k => W1 (ix2 j k)) (fun k => b1 (ix1 k)) (fun k c => W2 (ix2 k c))
          (fun c => b2 (ix1 c)) c := rfl

/-! ## Three steps that change no value -/

/-- The word `0x3F800000` is the real number one. -/
theorem word_one : Ideal.ofBits .f32 0x3F800000#32 = ((1 : ℝ) : EReal) := by
  simp [Ideal.ofBits, Ideal.ieee, -EReal.coe_mul]
  norm_num

/-- Dividing by the word of one returns the dividend, at the infinities too: the quotient by a nonzero real is the
    product with its reciprocal, and one is its own reciprocal. -/
theorem div_word_one (x : EReal) : Ideal.div x (Ideal.ofBits .f32 0x3F800000#32) = x := by
  rw [word_one, Ideal.div_coe one_ne_zero, div_one, EReal.coe_one, mul_one]

/-- The word `0xFF800000` is minus infinity, the least extended real, so a maximum against it is the other value. -/
theorem max_word_negInf (x : EReal) : max (Ideal.ofBits .f32 0xFF800000#32) x = x := by
  simp [Ideal.ofBits, Ideal.ieee]

/-- A sum started from the word of zero is the sum. -/
theorem word_zero_add (s : EReal) : Ideal.ofBits .f32 0x00000000#32 + s = s := by
  rw [Ideal.ofBits_zero_f32, zero_add]

end Cert.Router

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.LibRowMax.lean ====
/-
  The maximum along the lanes of a row, read at an index, at the exact values.

  A lane maximum of an [a, b] array started from the word of minus infinity is, at row p, the fold of `max` from that word's value
  over the row's b entries; the host's one-operand reduce with a maximum body over the same axis is the same fold from
  its initial value. Both forms are stated over `Fin b` with the entries named by their coordinates, so a row-wise
  normalization on a block of rows and on the whole array meet in one expression.
-/
import Idealize.ShloMosaic.Lib.ValueIdx
import Idealize.ShloMosaic.PureOps.Ideal.Laws
import Idealize.ShloMosaic.PureOps.Reduce

noncomputable section

namespace Cert.LibRowMax

open Idealize.ShloMosaic Idealize.ShloMosaic.ValueIdx

/-- The inserted index of a lane reduction of an [a, b] array at row p and lane k is (p, k). -/
theorem lift_row {a b : ℕ} (h : (⟨2, ![a, b]⟩ : Shape).Reduces [1] ⟨1, ![a]⟩) (p : Fin a) (k : Fin b) :
    h.lift (ix1 p) k = ix2 p k :=
  funext fun c => by
    match c with
    | ⟨0, _⟩ => exact Fin.ext rfl
    | ⟨1, _⟩ => exact Fin.ext rfl

/-- The lane maximum of an `[a, b]` array started from the word of minus infinity, at row `p`: the fold of `max`
    over the row's entries from that word's value. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src 0xFF800000#32 h hφ hacc (ix1 p)).trans
    (congrArg (Finset.fold max (Ideal.ofBits .f32 0xFF800000#32) · Finset.univ) (funext fun k => congrArg src (lift_row h p k)))

/-- The host's reduce with a maximum body over the lanes of an `[a, b]` array, at row `p`: the fold of `max`
    over the row's entries from the initial value. -/
theorem hostMax_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (Finset.fold max (init (Shape.Idx.first hu)) · Finset.univ) (funext fun k => congrArg x (lift_row h p k)))

end Cert.LibRowMax

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.KernelRow.lean ====
/-
  What the kernel writes at row p, lane c of a block: the routing score of the block's row p.

  The body's one stored value is a chain of three stages. From the block of 2048 rows x, the weights W1 and the
  one-row bias b1: the hidden layer, a product into a zero accumulator, plus the bias row repeated over the rows, then
  the maximum with zero. From the hidden layer, W2 and the one-row bias b2: the logits, again a product plus a repeated
  row. From the logits: their lane maximum started from minus infinity, put back as a column and repeated over the
  8 lanes, subtracted; the exponential; the lane sum of the exponentials, put back the same way; the quotient.

  Each stage is read at an entry (p, k). A product into a zero accumulator is the sum over the contracted axis of
  row p of the left factor times column k of the right one. A one-row array repeated over the rows reads its single
  row. A lane maximum or lane sum at row p is the maximum or the sum over that row's 8 entries, and casting it to a
  column and repeating the column over the lanes gives every lane of row p that same number. The pointwise steps read
  entry by entry. So entry (p, c) of the stored value depends on row p of x alone, and is the score of that row.
-/
import proofs.«148336_g54700703482363_cont_9to1_m_305_27_alg».proof.Proof.Gen.KernelIdeal.Skeleton
import proofs.«148336_g54700703482363_cont_9to1_m_305_27_alg».proof.Proof.RowScore
import proofs.«148336_g54700703482363_cont_9to1_m_305_27_alg».proof.Proof.LibKeepdims
import proofs.«148336_g54700703482363_cont_9to1_m_305_27_alg».proof.Proof.LibRowMax
import proofs.«148336_g54700703482363_cont_9to1_m_305_27_alg».proof.Proof.LibMatmulRead
import Idealize.ShloMosaic.Lib.ValueIdx
import Idealize.ShloMosaic.Lib.ValueLayout
import Idealize.ShloMosaic.Lib.Pipeline.Value

noncomputable section

open scoped BigOperators

namespace Cert.KernelIdeal.RowValue

open Cert.KernelIdeal Cert.KernelIdeal.Gen Idealize.ShloMosaic Idealize.ShloMosaic.ValueIdx

/-! ## The three stages, as functions of the loaded blocks -/

/-- The hidden layer of a block: x times W1 into zeros, plus the bias row over all rows, maximum with zero. -/
def hiddenBlock (x : FVec Ideal S2048x2048 .f32) (W1 : FVec Ideal S2048x256 .f32) (b1 : FVec Ideal S1x256 .f32) :
    FVec Ideal S2048x256 .f32 :=
  maximumf (addf (matmul dot_S2048x2048_S2048x256_S2048x256_1_0_0_1_n_n none x W1 (constant S2048x256 .f32 0x00000000#32))
      (broadcastTo S2048x256 (shapeCast S1x256 b1 shapeCasts_S1x256_S1x256) broadcasts_S1x256_S2048x256))
    (broadcast S2048x256 (Scalar.ofBits .f32 0x00000000#32))

/-- The logits of a block: the hidden layer times W2 into zeros, plus the bias row over all rows. -/
def logitBlock (h : FVec Ideal S2048x256 .f32) (W2 : FVec Ideal S256x8 .f32) (b2 : FVec Ideal S1x8 .f32) :
    FVec Ideal S2048x8 .f32 :=
  addf (matmul dot_S2048x256_S256x8_S2048x8_1_0_0_1_n_n none h W2 (constant S2048x8 .f32 0x00000000#32))
    (broadcastTo S2048x8 (shapeCast S1x8 b2 shapeCasts_S1x8_S1x8) broadcasts_S1x8_S2048x8)

/-- The logits less their row maximum, the maximum repeated over the lanes. -/
def shiftedBlock (z : FVec Ideal S2048x8 .f32) : FVec Ideal S2048x8 .f32 :=
  subf z (broadcastTo S2048x8 (shapeCast S2048x1
    (multiReduction .maximumf [1] S2048 z 0xFF800000#32 reduces_S2048x8_S2048 (.inl rfl) rfl) shapeCasts_S2048_S2048x1)
    broadcasts_S2048x1_S2048x8)

/-- Values divided by their row sum, the sum repeated over the lanes. -/
def normalizedBlock (e : FVec Ideal S2048x8 .f32) : FVec Ideal S2048x8 .f32 :=
  divf e (broadcastTo S2048x8 (shapeCast S2048x1
    (multiReduction .add [1] S2048 e 0x00000000#32 reduces_S2048x8_S2048 (.inl rfl) rfl) shapeCasts_S2048_S2048x1)
    broadcasts_S2048x1_S2048x8)

/-- The stored value is the composite of the stages. -/
theorem pay_eq_stages (x : Vec Ideal S2048x2048 .f32) (W1 : Vec Ideal S2048x256 .f32) (b1 : Vec Ideal S1x256 .f32)
    (W2 : Vec Ideal S256x8 .f32) (b2 : Vec Ideal S1x8 .f32) :
    k0_pay1 (F := Ideal) x W1 b1 W2 b2
      = normalizedBlock (exp (shiftedBlock (logitBlock (hiddenBlock x W1 b1) W2 b2))) := rfl

/-! ## Each stage read at an entry -/

/-- Both products contract the left factor's second axis with the right factor's first and carry no batch axis. -/
theorem rowsByCols_hidden : MatmulRead.RowsByCols dot_S2048x2048_S2048x256_S2048x256_1_0_0_1_n_n :=
  ⟨rfl, rfl, rfl, rfl, rfl, rfl⟩
theorem rowsByCols_logit : MatmulRead.RowsByCols dot_S2048x256_S256x8_S2048x8_1_0_0_1_n_n :=
  ⟨rfl, rfl, rfl, rfl, rfl, rfl⟩

/-- Hidden unit k of block row p: the positive part of row p's affine image. The bias is read in its one row. -/
theorem hiddenBlock_apply (x : FVec Ideal S2048x2048 .f32) (W1 : FVec Ideal S2048x256 .f32) (b1 : FVec Ideal S1x256 .f32)
    (p : Fin 2048) (k : Fin 256) :
    hiddenBlock x W1 b1 (ix2 p k)
      = Router.hidden (fun j => x (ix2 p j)) (fun j k => W1 (ix2 j k)) (fun k => b1 (ix2 (0 : Fin 1) k)) k := by
  show max (FloatOps.matmul dot_S2048x2048_S2048x256_S2048x256_1_0_0_1_n_n none x W1 (constant S2048x256 .f32 0x00000000#32) (ix2 p k)
      + broadcastTo S2048x256 (shapeCast S1x256 b1 shapeCasts_S1x256_S1x256) broadcasts_S1x256_S2048x256 (ix2 p k))
    (Ideal.ofBits .f32 0x00000000#32) = _
  rw [MatmulRead.matmul_zero_ix2 rowsByCols_hidden rfl rfl, broadcastTo_1b_ab_apply, shapeCast_self]
  rfl

/-- Logit c of block row p from any hidden layer h: the affine image of row p of h. -/
theorem logitBlock_apply (h : FVec Ideal S2048x256 .f32) (W2 : FVec Ideal S256x8 .f32) (b2 : FVec Ideal S1x8 .f32)
    (p : Fin 2048) (c : Fin 8) :
    logitBlock h W2 b2 (ix2 p c) = (∑ k : Fin 256, h (ix2 p k) * W2 (ix2 k c)) + b2 (ix2 (0 : Fin 1) c) := by
  show FloatOps.matmul dot_S2048x256_S256x8_S2048x8_1_0_0_1_n_n none h W2 (constant S2048x8 .f32 0x00000000#32) (ix2 p c)
      + broadcastTo S2048x8 (shapeCast S1x8 b2 shapeCasts_S1x8_S1x8) broadcasts_S1x8_S2048x8 (ix2 p c) = _
  rw [MatmulRead.matmul_zero_ix2 rowsByCols_logit rfl rfl, broadcastTo_1b_ab_apply, shapeCast_self]

/-- Entry (p, c) less the peak of row p: the row maximum comes back to every lane of its row. -/
theorem shiftedBlock_apply (z : FVec Ideal S2048x8 .f32) (p : Fin 2048) (c : Fin 8) :
    shiftedBlock z (ix2 p c) = z (ix2 p c) - Router.peak (fun c' => z (ix2 p c')) := by
  show z (ix2 p c) - broadcastTo S2048x8 (shapeCast S2048x1
      (multiReduction .maximumf [1] S2048 z 0xFF800000#32 reduces_S2048x8_S2048 (.inl rfl) rfl) shapeCasts_S2048_S2048x1)
      broadcasts_S2048x1_S2048x8 (ix2 p c) = _
  rw [LibKeepdims.broadcastTo_a1_ab_apply, LibKeepdims.shapeCast_a_a1_apply, LibRowMax.laneMax_apply]
  rfl

/-- Entry (p, c) over the sum of row p: the row sum comes back to every lane of its row. -/
theorem normalizedBlock_apply (e : FVec Ideal S2048x8 .f32) (p : Fin 2048) (c : Fin 8) :
    normalizedBlock e (ix2 p c) = Ideal.div (e (ix2 p c)) (∑ c' : Fin 8, e (ix2 p c')) := by
  show Ideal.div (e (ix2 p c)) (broadcastTo S2048x8 (shapeCast S2048x1
      (multiReduction .add [1] S2048 e 0x00000000#32 reduces_S2048x8_S2048 (.inl rfl) rfl) shapeCasts_S2048_S2048x1)
      broadcasts_S2048x1_S2048x8 (ix2 p c)) = _
  rw [LibKeepdims.broadcastTo_a1_ab_apply, LibKeepdims.shapeCast_a_a1_apply, LibKeepdims.laneSum_apply]

/-! ## The stored value at an entry -/

/-- Entry (p, c) of what the body stores is the routing score, at expert c, of row p of the block of x, under the
    weights and the one-row biases as loaded. -/
theorem pay_apply (x : Vec Ideal S2048x2048 .f32) (W1 : Vec Ideal S2048x256 .f32) (b1 : Vec Ideal S1x256 .f32)
    (W2 : Vec Ideal S256x8 .f32) (b2 : Vec Ideal S1x8 .f32) (p : Fin 2048) (c : Fin 8) :
    k0_pay1 (F := Ideal) x W1 b1 W2 b2 (ix2 p c)
      = Router.rowScore (fun j => x (ix2 p j)) (fun j k => W1 (ix2 j k)) (fun k => b1 (ix2 (0 : Fin 1) k))
          (fun k c => W2 (ix2 k c)) (fun c => b2 (ix2 (0 : Fin 1) c)) c := by
  rw [pay_eq_stages, normalizedBlock_apply]
  show Ideal.div (Ideal.exp (shiftedBlock (logitBlock (hiddenBlock x W1 b1) W2 b2) (ix2 p c)))
      (∑ c' : Fin 8, Ideal.exp (shiftedBlock (logitBlock (hiddenBlock x W1 b1) W2 b2) (ix2 p c'))) = _
  simp only [shiftedBlock_apply, logitBlock_apply, hiddenBlock_apply]
  rfl

end Cert.KernelIdeal.RowValue

end
-- ==== Proof.KernelArray.lean ====
/-
  From the blocks to the whole array: after the run the result array holds the routing scores of all 16384 rows.

  The grid has 8 points. At point t the x window holds rows 2048 t to 2048 t + 2047 of x, whole in the feature axis;
  the two weight windows hold their whole arrays at every point; the two bias windows hold the one-row arrays the host
  made from the bias vectors by a reshape, so entry (0, k) of a bias window is entry k of the bias vector. The result
  window's block at point t is rows 2048 t to 2048 t + 2047 of the result, all 8 lanes.

  So row p of the x block at t is row 2048 t + p of x, and by the entry-by-entry reading of the stored value, what
  point t writes back is block t of ONE function of the argument arrays: the scores of all rows. Every row r lies
  in exactly the block of point r / 2048, so the blocks cover the result array, and the array ends as that function.
-/
import proofs.«148336_g54700703482363_cont_9to1_m_305_27_alg».proof.Proof.Gen.KernelIdeal.Value
import proofs.«148336_g54700703482363_cont_9to1_m_305_27_alg».proof.Proof.KernelRow
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The body's loads and its store start at offset zero on both axes. -/
theorem zero_offsets : (![0, 0] : Fin 2 → Nat) = fun _ => 0 := funext fun a => by fin_cases a <;> rfl

/-- The windows' block indices over the 8 points: the x window and the result window move together along the rows,
    at block index t; every other index is zero. -/
theorem index_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The bias windows' arrays: what the host's reshapes wrote -/

/-- The one-row array the first bias window stages is the bias vector b1 laid out as one row. -/
theorem bias1_array (c : Dev nD) :
    (V m c main_v0 : S1x256.Idx → EReal) = shapeCast S1x256 (m ((c : Thread nD τ).loc main_arg2)) shapeCasts_S256_S1x256 := by
  dsimp only [Gen.V, Gen.hostOps0]; after_results; rfl

/-- The one-row array the second bias window stages is the bias vector b2 laid out as one row. -/
theorem bias2_array (c : Dev nD) :
    (V m c main_v1 : S1x8.Idx → EReal) = shapeCast S1x8 (m ((c : Thread nD τ).loc main_arg4)) shapeCasts_S8_S1x8 := by
  dsimp only [Gen.V, Gen.hostOps0]; after_results; rfl

/-! ## Each input window's block at a point, read as entries of the argument arrays -/

/-- Entry y of the x block at point t is the entry of x whose row is 2048 t further down and whose column is y's. -/
theorem x_block (c : Dev nD) (t : Fin cfg0.N) (y : S2048x2048.Idx) (i : S16384x2048.Idx)
    (h0 : (i 0).val = win0_5.index t (0 : Fin 2) * 2048 + (y 0).val) (h1 : (i 1).val = (y 1).val) :
    iblk m c 0 t y = (m ((c : Thread nD τ).loc main_arg0)) i := by
  obtain ⟨e0, e1, -⟩ := index_facts t
  show V m c main_arg0 (((cfg0.win 0).blk t).view.emb y) = _
  rw [V_main_arg0]
  refine congrArg _ (funext fun a => Fin.ext ?_)
  match a with
  | ⟨0, _⟩ => show win0_0.index t (0 : Fin 2) * 2048 + 1 * (y 0).val = (i 0).val; omega
  | ⟨1, _⟩ => show win0_0.index t (1 : Fin 2) * 2048 + 1 * (y 1).val = (i 1).val; omega

/-- The first weight window's block is the whole of W1 at every point. -/
theorem W1_block (c : Dev nD) (t : Fin cfg0.N) (y : S2048x256.Idx) :
    iblk m c 1 t y = (m ((c : Thread nD τ).loc main_arg1)) y := by
  obtain ⟨-, -, e0, e1, -⟩ := index_facts t
  show V m c main_arg1 (((cfg0.win 1).blk t).view.emb y) = _
  rw [V_main_arg1]
  refine congrArg _ (funext fun a => Fin.ext ?_)
  match a with
  | ⟨0, _⟩ => show win0_1.index t (0 : Fin 2) * 2048 + 1 * (y 0).val = (y 0).val; omega
  | ⟨1, _⟩ => show win0_1.index t (1 : Fin 2) * 256 + 1 * (y 1).val = (y 1).val; omega

/-- The second weight window's block is the whole of W2 at every point. -/
theorem W2_block (c : Dev nD) (t : Fin cfg0.N) (y : S256x8.Idx) :
    iblk m c 3 t y = (m ((c : Thread nD τ).loc main_arg3)) y := by
  obtain ⟨-, -, -, -, -, -, e0, e1, -⟩ := index_facts t
  show V m c main_arg3 (((cfg0.win 3).blk t).view.emb y) = _
  rw [V_main_arg3]
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 8 + 1 * (y 1).val = (y 1).val; omega

/-- Entry (0, k) of the first bias window's block is entry k of the bias vector b1, at every point. -/
theorem b1_block (c : Dev nD) (t : Fin cfg0.N) (k : Fin 256) :
    iblk m c 2 t (ix2 (0 : Fin 1) k) = (m ((c : Thread nD τ).loc main_arg2)) (ix1 k) := by
  obtain ⟨-, -, -, -, e0, e1, -⟩ := index_facts t
  have hb : iblk m c 2 t (ix2 (0 : Fin 1) k) = V m c main_v0 (ix2 (0 : Fin 1) k) := by
    show V m c main_v0 (((cfg0.win 2).blk t).view.emb (ix2 (0 : Fin 1) k)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * k.val = k.val; omega
  rw [hb, bias1_array]
  exact shapeCast_a_1a_apply _ _ (0 : Fin 1) k

/-- Entry (0, q) of the second bias window's block is entry q of the bias vector b2, at every point. -/
theorem b2_block (c : Dev nD) (t : Fin cfg0.N) (q : Fin 8) :
    iblk m c 4 t (ix2 (0 : Fin 1) q) = (m ((c : Thread nD τ).loc main_arg4)) (ix1 q) := by
  obtain ⟨-, -, -, -, -, -, -, -, e0, e1, -⟩ := index_facts t
  have hb : iblk m c 4 t (ix2 (0 : Fin 1) q) = V m c main_v1 (ix2 (0 : Fin 1) q) := by
    show V m c main_v1 (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 8 + 1 * q.val = q.val; omega
  rw [hb, bias2_array]
  exact shapeCast_a_1a_apply _ _ (0 : Fin 1) q

/-! ## What a point writes back -/

/-- The stored value at entry y of a block is the score array at entry i, for ANY blocks and arrays such that: row
    y 0 of the x block is row i 0 of x; the weight blocks are the weight arrays; the one-row bias blocks hold the
    bias vectors; and y and i have the same lane. -/
theorem block_entry (xb : Vec Ideal S2048x2048 .f32) (W1b : Vec Ideal S2048x256 .f32) (b1b : Vec Ideal S1x256 .f32)
    (W2b : Vec Ideal S256x8 .f32) (b2b : Vec Ideal S1x8 .f32)
    (X : S16384x2048.Idx → EReal) (W1 : S2048x256.Idx → EReal) (b1 : S256.Idx → EReal) (W2 : S256x8.Idx → EReal)
    (b2 : S8.Idx → EReal) (y : S2048x8.Idx) (i : S16384x8.Idx)
    (hx : ∀ j : Fin 2048, xb (ix2 (⟨(y 0).val, (y 0).isLt⟩ : Fin 2048) j) = X (ix2 (⟨(i 0).val, (i 0).isLt⟩ : Fin 16384) j))
    (hW1 : ∀ (j : Fin 2048) (k : Fin 256), W1b (ix2 j k) = W1 (ix2 j k))
    (hb1 : ∀ k : Fin 256, b1b (ix2 (0 : Fin 1) k) = b1 (ix1 k))
    (hW2 : ∀ (k : Fin 256) (q : Fin 8), W2b (ix2 k q) = W2 (ix2 k q))
    (hb2 : ∀ q : Fin 8, b2b (ix2 (0 : Fin 1) q) = b2 (ix1 q))
    (hlane : (y 1).val = (i 1).val) :
    k0_pay1 (F := Ideal) xb W1b b1b W2b b2b y = Router.scores X W1 b1 W2 b2 i := by
  obtain ⟨p, q, rfl⟩ : ∃ (p : Fin 2048) (q : Fin 8), y = ix2 p q := ⟨y 0, y 1, eq_ix2 y⟩
  obtain ⟨r, q', rfl⟩ : ∃ (r : Fin 16384) (q' : Fin 8), i = ix2 r q' := ⟨i 0, i 1, eq_ix2 i⟩
  obtain rfl : q = q' := Fin.ext hlane
  rw [RowValue.pay_apply, Router.scores_ix2]
  have hx' : ∀ j : Fin 2048, xb (ix2 p j) = X (ix2 r j) := hx
  simp only [hx', hW1, hb1, hW2, hb2]

/-- WHAT POINT t WRITES BACK is block t of the score array of the argument arrays. -/
theorem flushed_eq (c : Dev nD) (t : Fin cfg0.N) :
    (dats m 0 c).flushed 5 t = ((cfg0.win 5).blk t).view.read (Elt Ideal)
      (Router.scores (m ((c : Thread nD τ).loc main_arg0)) (m ((c : Thread nD τ).loc main_arg1))
        (m ((c : Thread nD τ).loc main_arg2)) (m ((c : Thread nD τ).loc main_arg3))
        (m ((c : Thread nD τ).loc main_arg4))) := by
  rw [Value.flushed5]
  unfold out0_5
  rw [View.canon_unit_zero zero_offsets]
  simp only [View.ld_unit_zero (S := S2048x2048) zero_offsets, View.ld_unit_zero (S := S2048x256) zero_offsets,
    View.ld_unit_zero (S := S1x256) zero_offsets, View.ld_unit_zero (S := S256x8) zero_offsets,
    View.ld_unit_zero (S := S1x8) zero_offsets]
  funext y
  show k0_pay1 (F := Ideal) (iblk m c 0 t) (iblk m c 1 t) (iblk m c 2 t) (iblk m c 3 t) (iblk m c 4 t) y
    = Router.scores (m ((c : Thread nD τ).loc main_arg0)) (m ((c : Thread nD τ).loc main_arg1))
        (m ((c : Thread nD τ).loc main_arg2)) (m ((c : Thread nD τ).loc main_arg3))
        (m ((c : Thread nD τ).loc main_arg4)) (((cfg0.win 5).blk t).view.emb y)
  refine block_entry (iblk m c 0 t) (iblk m c 1 t) (iblk m c 2 t) (iblk m c 3 t) (iblk m c 4 t)
    (m ((c : Thread nD τ).loc main_arg0)) (m ((c : Thread nD τ).loc main_arg1))
    (m ((c : Thread nD τ).loc main_arg2)) (m ((c : Thread nD τ).loc main_arg3))
    (m ((c : Thread nD τ).loc main_arg4)) y (((cfg0.win 5).blk t).view.emb y) ?_ ?_ ?_ ?_ ?_ ?_
  · intro j
    refine x_block m c t _ _ ?_ rfl
    show win0_5.index t (0 : Fin 2) * 2048 + 1 * (y 0).val = win0_5.index t (0 : Fin 2) * 2048 + (y 0).val
    omega
  · intro j k; exact W1_block m c t _
  · intro k; exact b1_block m c t k
  · intro k q; exact W2_block m c t _
  · intro q; exact b2_block m c t q
  · obtain ⟨-, -, -, -, -, -, -, -, -, -, -, e1⟩ := index_facts t
    show (y 1).val = win0_5.index t (1 : Fin 2) * 8 + 1 * (y 1).val
    omega

/-! ## The blocks cover the result array -/

/-- An entry of the result array is in point t's block iff each coordinate is in the block's range on its axis. -/
theorem mem_block (t : Fin cfg0.N) (i : S16384x8.Idx) :
    i ∈ ((cfg0.win 5).blk t).view.set ↔ ∀ a : Fin 2, win0_5.index t a * S2048x8.size a ≤ (i a).val
      ∧ (i a).val < win0_5.index t a * S2048x8.size a + S2048x8.size a := by
  show i ∈ ((View.whole main_v2).slice (win0_5.rect t)).set ↔ _
  rw [View.set_slice_whole, Rect.mem_set_unit]
  exact Iff.rfl

/-- Every entry is written back by some point: row r by the point r / 2048. -/
theorem covered (i : S16384x8.Idx) :
    ∃ t : Fin cfg0.N, (cfg0.win 5).flush t = true ∧ i ∈ ((cfg0.win 5).blk t).view.set := by
  have hi0 : (i 0).val < 16384 := (i 0).isLt
  have hi1 : (i 1).val < 8 := (i 1).isLt
  have hN : grid0.N = 8 := N_0
  have ht : (i 0).val / 2048 < grid0.N := by rw [hN]; omega
  refine ⟨⟨(i 0).val / 2048, ht⟩, flush0_5 _, ?_⟩
  obtain ⟨-, -, -, -, -, -, -, -, -, -, e0, e1⟩ := index_facts ⟨(i 0).val / 2048, ht⟩
  have e0' : win0_5.index ⟨(i 0).val / 2048, ht⟩ (0 : Fin 2) = (i 0).val / 2048 := e0
  rw [mem_block]
  intro a
  match a with
  | ⟨0, _⟩ =>
    show win0_5.index ⟨(i 0).val / 2048, ht⟩ (0 : Fin 2) * 2048 ≤ (i 0).val
      ∧ (i 0).val < win0_5.index ⟨(i 0).val / 2048, ht⟩ (0 : Fin 2) * 2048 + 2048
    rw [e0']; omega
  | ⟨1, _⟩ =>
    show win0_5.index ⟨(i 0).val / 2048, ht⟩ (1 : Fin 2) * 8 ≤ (i 1).val
      ∧ (i 1).val < win0_5.index ⟨(i 0).val / 2048, ht⟩ (1 : Fin 2) * 8 + 8
    rw [e1]; omega

/-! ## The result array, and the run -/

/-- THE RESULT ARRAY after the run is the score array of the argument arrays. -/
theorem final (c : Dev nD) :
    (dats m 0 c).arrAt 5 cfg0.N
      = (Router.scores (m ((c : Thread nD τ).loc main_arg0)) (m ((c : Thread nD τ).loc main_arg1))
        (m ((c : Thread nD τ).loc main_arg2)) (m ((c : Thread nD τ).loc main_arg3))
        (m ((c : Thread nD τ).loc main_arg4))) :=
  (dats m 0 c).arrAt_eq_of_cover 5 _ (fun t _ => flushed_eq m c t) covered

/-- The kernel's run: every weakly fair execution ends with the result array at the score array of the arguments, and
    the arguments as they were. -/
theorem run : θ_run defs (onTc (τ := τ) (main (F := Ideal))) ⟨m, fun _ => 0, ρ⟩ fun r => ∀ c : Dev nD,
      r.2.mem ((c : Thread nD τ).loc main_v2)
        = (Router.scores (m ((c : Thread nD τ).loc main_arg0)) (m ((c : Thread nD τ).loc main_arg1))
        (m ((c : Thread nD τ).loc main_arg2)) (m ((c : Thread nD τ).loc main_arg3))
        (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.ReferenceRow.lean ====
/-
  What the reference computes at row r, lane c: the routing score of row r of x.

  The reference runs the same chain on the whole 16384-row array, with three extra steps that change no value. It
  divides the logits by the word of 1.0 before the softmax; it takes the maximum of the lane maximum with minus
  infinity once more; and its lane sum starts from the word of zero. Its biases are vectors, laid out as one row
  and then repeated over the rows, so a bias is read at its own lane.

  Read at entry (r, c) stage by stage: a product is the sum over the contracted axis of row r of the left factor
  times column c of the right one; a repeated row reads its lane; the lane maximum and the lane sum at row r run
  over that row's 8 entries, and the column they are laid out as, repeated over the lanes, gives back the row's
  number at every lane. The composed index maps of these layout steps are identified with plain (row, lane) indices
  coordinate by coordinate. With the three value-preserving steps removed, entry (r, c) is the score of row r.
-/
import proofs.«148336_g54700703482363_cont_9to1_m_305_27_alg».proof.Proof.Gen.ReferenceIdeal.Read
import proofs.«148336_g54700703482363_cont_9to1_m_305_27_alg».proof.Proof.RowScore
import proofs.«148336_g54700703482363_cont_9to1_m_305_27_alg».proof.Proof.LibRowMax
import Idealize.ShloMosaic.Lib.ValueIdx

noncomputable section

open scoped BigOperators

namespace Cert.ReferenceIdeal.RowValue

open Cert.ReferenceIdeal Cert.ReferenceIdeal.Gen Cert.ReferenceIdeal.Read Idealize.ShloMosaic Idealize.ShloMosaic.ValueIdx

variable (X : (⟨S16384x2048, .f32⟩ : BufTy).Contents (Elt Ideal)) (W1 : (⟨S2048x256, .f32⟩ : BufTy).Contents (Elt Ideal))
  (b1 : (⟨S256, .f32⟩ : BufTy).Contents (Elt Ideal)) (W2 : (⟨S256x8, .f32⟩ : BufTy).Contents (Elt Ideal))
  (b2 : (⟨S8, .f32⟩ : BufTy).Contents (Elt Ideal))

/-! ## The layout steps' index maps, in coordinates -/

theorem lidx_hidden (r : Fin 16384) (k : Fin 256) (j : Fin 2048) : lidx_main_v0 (ix2 r k) j = ix2 r j :=
  funext fun a => Fin.ext (by match a with | ⟨0, _⟩ => rfl | ⟨1, _⟩ => rfl)
theorem ridx_hidden (r : Fin 16384) (k : Fin 256) (j : Fin 2048) : ridx_main_v0 (ix2 r k) j = ix2 j k :=
  funext fun a => Fin.ext (by match a with | ⟨0, _⟩ => rfl | ⟨1, _⟩ => rfl)
theorem idx_bias1 (r : Fin 16384) (k : Fin 256) : idx_main_v1 (idx_main_v2 (ix2 r k)) = ix1 k :=
  funext fun a => Fin.ext (by match a with | ⟨0, _⟩ => rfl)
theorem lidx_logit (r : Fin 16384) (c : Fin 8) (k : Fin 256) : lidx_main_v5 (ix2 r c) k = ix2 r k :=
  funext fun a => Fin.ext (by match a with | ⟨0, _⟩ => rfl | ⟨1, _⟩ => rfl)
theorem ridx_logit (r : Fin 16384) (c : Fin 8) (k : Fin 256) : ridx_main_v5 (ix2 r c) k = ix2 k c :=
  funext fun a => Fin.ext (by match a with | ⟨0, _⟩ => rfl | ⟨1, _⟩ => rfl)
theorem idx_bias2 (r : Fin 16384) (c : Fin 8) : idx_main_v6 (idx_main_v7 (ix2 r c)) = ix1 c :=
  funext fun a => Fin.ext (by match a with | ⟨0, _⟩ => rfl)
theorem idx_peak (r : Fin 16384) (c : Fin 8) : idx_main_v14 (idx_main_v15 (ix2 r c)) = ix1 r :=
  funext fun a => Fin.ext (by match a with | ⟨0, _⟩ => rfl)
theorem idx_total (r : Fin 16384) (c : Fin 8) : idx_main_v19 (idx_main_v20 (ix2 r c)) = ix1 r :=
  funext fun a => Fin.ext (by match a with | ⟨0, _⟩ => rfl)
theorem idx_lane (r : Fin 16384) (c : Fin 8) : idx_main_v18 (ix1 r) c = ix2 r c :=
  funext fun a => Fin.ext (by match a with | ⟨0, _⟩ => rfl | ⟨1, _⟩ => rfl)

/-! ## The stages at an entry -/

/-- Hidden unit k of row r. -/
theorem hidden_apply (r : Fin 16384) (k : Fin 256) :
    val_main_v4 (F := Ideal) X W1 b1 (ix2 r k)
      = Router.hidden (fun j => X (ix2 r j)) (fun j k => W1 (ix2 j k)) (fun k => b1 (ix1 k)) k := by
  rw [val_main_v4_apply, val_main_v3_apply, val_main_v0_apply, val_main_v2_apply, val_main_v1_apply,
    val_main_call0_v0_apply, val_main_call0_cst_apply, idx_bias1]
  simp only [lidx_hidden, ridx_hidden, Ideal.maximumf_def, Ideal.addf_def, Ideal.ofBits_def]
  rfl

/-- Logit c of row r; the division by the word of one is dropped. -/
theorem logit_apply (r : Fin 16384) (c : Fin 8) :
    val_main_v10 (F := Ideal) X W1 b1 W2 b2 (ix2 r c)
      = Router.logit (fun j => X (ix2 r j)) (fun j k => W1 (ix2 j k)) (fun k => b1 (ix1 k))
          (fun k c => W2 (ix2 k c)) (fun c => b2 (ix1 c)) c := by
  rw [val_main_v10_apply, val_main_v9_apply, val_main_cst_apply, Ideal.hostDivf_def, Ideal.ofBits_def,
    Router.div_word_one, val_main_v8_apply, val_main_v5_apply, val_main_v7_apply, val_main_v6_apply, idx_bias2]
  simp only [lidx_logit, ridx_logit, hidden_apply, Ideal.addf_def]
  rfl

/-- The lanes of the [16384, 8] array reduce onto its rows. -/
theorem reduces_lanes : S16384x8.Reduces [1] S16384 := by decide

/-- The peak of row r: the maximum over the row's 8 logits from minus infinity; the second maximum against minus
    infinity is dropped. -/
theorem peak_apply (r : Fin 16384) :
    val_main_v13 (F := Ideal) X W1 b1 W2 b2 (ix1 r)
      = Router.peak (fun c => val_main_v10 (F := Ideal) X W1 b1 W2 b2 (ix2 r c)) := by
  rw [val_main_v13_apply, val_main_v12_apply, val_main_cst_1_apply, Ideal.maximumf_def, Ideal.ofBits_def,
    Router.max_word_negInf]
  unfold val_main_v11
  refine (LibRowMax.hostMax_apply _ _ reducesTo_S16384x8_S16384_d1 reduces_lanes h_S_ r).trans ?_
  rfl

/-- The exponential at (r, c) of the logit less the row's peak: the peak, laid out as a column and repeated over the
    lanes, is read at row r. -/
theorem exp_apply (r : Fin 16384) (c : Fin 8) :
    val_main_v17 (F := Ideal) X W1 b1 W2 b2 (ix2 r c)
      = Ideal.exp (val_main_v10 (F := Ideal) X W1 b1 W2 b2 (ix2 r c)
          - Router.peak (fun c' => val_main_v10 (F := Ideal) X W1 b1 W2 b2 (ix2 r c'))) := by
  rw [val_main_v17_apply, val_main_v16_apply, val_main_v15_apply, val_main_v14_apply, idx_peak, peak_apply,
    Ideal.hostUnary_exp_def, Ideal.subf_def]

/-- The total of row r: the sum of the row's 8 exponentials; the start from the word of zero is dropped. -/
theorem total_apply (r : Fin 16384) :
    val_main_v18 (F := Ideal) X W1 b1 W2 b2 (ix1 r)
      = ∑ c : Fin 8, val_main_v17 (F := Ideal) X W1 b1 W2 b2 (ix2 r c) := by
  rw [val_main_v18_apply, val_main_cst_2_apply, Ideal.ofBits_def, Router.word_zero_add]
  simp only [idx_lane]

/-! ## The result at an entry -/

/-- Entry (r, c) of the reference's result is the routing score, at expert c, of row r of x. -/
theorem score_apply (r : Fin 16384) (c : Fin 8) :
    val_main_v21 (F := Ideal) X W1 b1 W2 b2 (ix2 r c)
      = Router.rowScore (fun j => X (ix2 r j)) (fun j k => W1 (ix2 j k)) (fun k => b1 (ix1 k))
          (fun k c => W2 (ix2 k c)) (fun c => b2 (ix1 c)) c := by
  rw [val_main_v21_apply, val_main_v20_apply, val_main_v19_apply, idx_total, total_apply, Ideal.hostDivf_def]
  simp only [exp_apply, logit_apply]
  rfl

/-- The reference's result array is the score array of its arguments: entry by entry, each entry split into its row and
    its lane. -/
theorem result_eq_scores : val_main_v21 (F := Ideal) X W1 b1 W2 b2 = Router.scores X W1 b1 W2 b2 := by
  funext i
  obtain ⟨r, c, rfl⟩ : ∃ (r : Fin 16384) (c : Fin 8), i = ix2 r c := ⟨i 0, i 1, eq_ix2 i⟩
  rw [score_apply, Router.scores_ix2]

end Cert.ReferenceIdeal.RowValue

end
-- ==== Proof.lean ====
/-
  A token router: softmax (relu (x W1 + b1) W2 + b2), for x of 16384 tokens by 2048 features, W1 of 2048 by 256, W2 of
  256 by 8. The kernel computes it 2048 rows at a time, all of one block's work inside one grid point; the reference
  computes it on the whole array, one operation at a time.

  On the extended reals the two are one function of the arguments. Each result entry (r, c) depends on row r of x
  alone, through the same chain on both sides: 256 hidden units, the positive parts of an affine image of the row; 8
  logits, an affine image of the hidden units; and the softmax of the logits shifted by their maximum. A product into a
  zero accumulator and the reference's contraction are the same sum over the contracted axis; a lane maximum and a lane
  sum of a block's row run over the same 8 entries as the reference's reductions of that row. The reference's text
  has three more steps, and none changes a value at any extended real: it divides the logits by 1.0, it takes the
  maximum of the row maximum with minus infinity again, and it starts its lane sum from zero. So no law is used that
  could fail at an infinity, and the precondition that the inputs are finite is not opened for the values.

  The kernel's side: entry (p, c) of what a grid point stores is the score of row p of its x block (Proof/KernelRow);
  block t of x is rows 2048 t .. 2048 t + 2047, the weights are staged whole, the one-row biases are the bias vectors
  reshaped by the host, and the 8 result blocks tile the result array, which therefore ends as the scores of all rows
  (Proof/KernelArray, over the generated frame run with its output array named). The reference's side: its generated
  run ends at the composed term of its 28 operations, which read entry by entry is the same score array
  (Proof/ReferenceRow, over the generated read-at-an-index lemmas). The score itself is Proof/RowScore.

  The three frames are the generated ones: each kernel program's whole frame, and the reference's run with its result
  dropped. The ideal pass rewrote nothing, so the kernel's idealization is its own text read on the extended reals.
-/
import proofs.«148336_g54700703482363_cont_9to1_m_305_27_alg».proof.Defs
import proofs.«148336_g54700703482363_cont_9to1_m_305_27_alg».proof.Proof.Gen.Kernel
import proofs.«148336_g54700703482363_cont_9to1_m_305_27_alg».proof.Proof.Gen.Kernel.Frame
import proofs.«148336_g54700703482363_cont_9to1_m_305_27_alg».proof.Proof.Gen.KernelIdeal
import proofs.«148336_g54700703482363_cont_9to1_m_305_27_alg».proof.Proof.Gen.KernelIdeal.Frame
import proofs.«148336_g54700703482363_cont_9to1_m_305_27_alg».proof.Proof.Gen.KernelIdeal.Value
import proofs.«148336_g54700703482363_cont_9to1_m_305_27_alg».proof.Proof.Gen.ReferenceIdeal
import proofs.«148336_g54700703482363_cont_9to1_m_305_27_alg».proof.Proof.Gen.ReferenceIdeal.Run
import proofs.«148336_g54700703482363_cont_9to1_m_305_27_alg».proof.Proof.Gen.ReferenceIdeal.Read
import proofs.«148336_g54700703482363_cont_9to1_m_305_27_alg».proof.Proof.Gen.Pre_finite_inputs
import proofs.«148336_g54700703482363_cont_9to1_m_305_27_alg».proof.Proof.KernelArray
import proofs.«148336_g54700703482363_cont_9to1_m_305_27_alg».proof.Proof.ReferenceRow

noncomputable section

namespace Cert.Proof

open Idealize.ShloMosaic Idealize.SL.Sem

/-- The kernel as printed runs, faults nowhere, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals, so there is nothing to restate. -/
theorem preserves : Cert.preserves_Kernel_KernelIdeal := trivial

/-- From memories that agree on the five arguments, both programs end with the result array at the routing scores of
    those arguments: the kernel's blocks tile the score array, and the reference's composed term is that array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RowValue.result_eq_scores,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
